-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S512x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1024x512 : Shape := ⟨2, ![1024, 512]⟩
abbrev S1024x1536 : Shape := ⟨2, ![1024, 1536]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1024x512, .f32⟩
  | .hbm, ⟨7, _⟩ => ⟨S1024x512, .bf16⟩
  | .hbm, ⟨8, _⟩ => ⟨S1024x1024, .f32⟩
  | .hbm, ⟨9, _⟩ => ⟨S1024x1024, .bf16⟩
  | .hbm, ⟨10, _⟩ => ⟨S1024x1536, .bf16⟩
  | .hbm, ⟨11, _⟩ => ⟨S512x1024, .bf16⟩
  | .hbm, ⟨12, _⟩ => ⟨S16384x1024, .f32⟩
  | .hbm, ⟨13, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x1024_S16384x1024 : S4x4096x1024.ShapeCasts S16384x1024
  shapeCasts_S1024_S1x1024 : S1024.ShapeCasts S1x1024
  transposes_S512x1024_S1024x512_1_0 : S512x1024.Transposes [1, 0] S1024x512
  bitsLt_bf16_f32 : FTy.bits .bf16 < FTy.bits .f32
  transposes_S1024x1024_S1024x1024_1_0 : S1024x1024.Transposes [1, 0] S1024x1024
  concatenates_S1024x512_S1024x1024_S1024x1536_d1 : Shape.Concatenates [S1024x512, S1024x1024] S1024x1536 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  slices_S512x1536_o0_0_S512x512 : S512x1536.Slices ![0, 0] S512x512
  slices_S512x1536_o0_512_S512x1024 : S512x1536.Slices ![0, 512] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x512_S512 : S512x512.Reduces [1] S512
  shapeCasts_S512_S512x1 : S512.ShapeCasts S512x1
  broadcasts_S512x1_S512x512 : S512x1.Broadcasts S512x512
  shapeCasts_S16384x1024_S4x4096x1024 : S16384x1024.ShapeCasts S4x4096x1024
  dot_S512x1024_S1024x1536_S512x1536_1_0_0_1_n_n_wf : DotDims.WF S512x1024 S1024x1536 S512x1536 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x1024_S1024x1536_S512x1536_1_0_0_1_n_n : DotDims S512x1024 S1024x1536 S512x1536 where
  lhsContracting := [1]
  rhsContracting := [0]
  lhsNonContracting := [0]
  rhsNonContracting := [1]
  lhsBatch := []
  rhsBatch := []
  wf := dot_S512x1024_S1024x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S512x1024 : Shape := ⟨2, ![512, 1024]⟩
abbrev S1024x1024 : Shape := ⟨2, ![1024, 1024]⟩
abbrev S1024 : Shape := ⟨1, ![1024]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S4x4096x512, .f32⟩
  | .hbm, ⟨5, _⟩ => ⟨S_, .f32⟩
  | .hbm, ⟨6, _⟩ => ⟨S_, .f32⟩
  | .hbm, ⟨7, _⟩ => ⟨S4x4096x512, .f32⟩
  | .hbm, ⟨8, _⟩ => ⟨S4x4096x512, .f32⟩
  | .hbm, ⟨9, _⟩ => ⟨S_, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096x1, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x512, .f32⟩
  | .hbm, ⟨22, _⟩ => ⟨S4x4096x512, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S4x4096x512 : S_.BroadcastsInDim S4x4096x512 (![] : Fin 0 → Fin S4x4096x512.rank)
  reducesTo_S4x4096x512_S4x4096_d2 : S4x4096x512.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x512_0_1_2 : S4x4096x1.BroadcastsInDim S4x4096x512 (![0, 1, 2] : Fin 3 → Fin S4x4096x512.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  dot_S4x4096x1024_S512x1024_S4x4096x512_2_1_01_0_n_n_wf : DotDims.WF S4x4096x1024 S512x1024 S4x4096x512 [2] [1] [0, 1] [0] [] []
  dot_S4x4096x512_S512x1024_S4x4096x1024_2_0_01_1_n_n_wf : DotDims.WF S4x4096x512 S512x1024 S4x4096x1024 [2] [0] [0, 1] [1] [] []
  dot_S4x4096x1024_S1024x1024_S4x4096x1024_2_1_01_0_n_n_wf : DotDims.WF S4x4096x1024 S1024x1024 S4x4096x1024 [2] [1] [0, 1] [0] [] []

variable [Facts₀]

def dot_S4x4096x1024_S512x1024_S4x4096x512_2_1_01_0_n_n : DotDims S4x4096x1024 S512x1024 S4x4096x512 where
  lhsContracting := [2]
  rhsContracting := [1]
  lhsNonContracting := [0, 1]
  rhsNonContracting := [0]
  lhsBatch := []
  rhsBatch := []
  wf := dot_S4x4096x1024_S512x1024_S4x4096x512_2_1_01_0_n_n_wf
def dot_S4x4096x512_S512x1024_S4x4096x1024_2_0_01_1_n_n : DotDims S4x4096x512 S512x1024 S4x4096x1024 where
  lhsContracting := [2]
  rhsContracting := [0]
  lhsNonContracting := [0, 1]
  rhsNonContracting := [1]
  lhsBatch := []
  rhsBatch := []
  wf := dot_S4x4096x512_S512x1024_S4x4096x1024_2_0_01_1_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Row.lean ====
/-
  One token row of a gated read from a fixed memory bank, over the extended reals.

  A row x of 1024 features is scored against each of the 512 bank rows (the dot product, scaled by 1/32);
  the scores are turned into weights by the usual shifted exponentials over their sum; the weights mix the
  bank's rows into a retrieved row; and a gate in (0, 1), the logistic function of an affine map of x, blends
  x with the retrieved row: out e = gate e · x e + (1 − gate e) · retrieved e.

  Also here: the few float words the two programs spell, as the numbers they denote, and the one law that joins
  the two spellings of the score's scale: dividing by the square root of 1024 is multiplying by 1/32, at every
  extended real.
-/
import Idealize.ShloMosaic.PureOps.Ideal
import Idealize.ShloMosaic.PureOps.Ideal.Laws

noncomputable section

open scoped BigOperators

namespace Cert.BankRow

open Idealize.ShloMosaic

/-! ## The words -/

/-- The word of 1.0 denotes 1. -/
theorem word_one : Ideal.ofBits .f32 0x3F800000#32 = 1 := by
  simp [Ideal.ofBits, Ideal.ieee, -EReal.coe_mul]; norm_num

/-- The word of −∞ denotes the bottom of the extended reals. -/
theorem word_negInf : Ideal.ofBits .f32 0xFF800000#32 = ⊥ := by
  simp [Ideal.ofBits, Ideal.ieee]

/-- The word of 1024.0 denotes the real 1024. -/
theorem word_1024 : Ideal.ofBits .f32 0x44800000#32 = ((1024 : ℝ) : EReal) := by
  simp [Ideal.ofBits, Ideal.ieee, -EReal.coe_mul]; norm_num

/-- The word of 0.03125 denotes the real 1/32. -/
theorem word_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- Dividing by the square root of 1024 is multiplying by 1/32, at every extended real. -/
theorem div_sqrt_1024 (x : EReal) :
    Ideal.div x (Ideal.sqrt (Ideal.ofBits .f32 0x44800000#32)) = x * Ideal.ofBits .f32 0x3D000000#32 := by
  rw [word_1024, sqrt_1024, word_inv32]
  exact Ideal.div_coe (by norm_num) x

/-- The maximum with the bottom is the other operand. -/
theorem max_negInf (x : EReal) : max (Ideal.ofBits .f32 0xFF800000#32) x = x := by
  rw [word_negInf]; exact max_eq_right bot_le

/-! ## The row -/

/-- The score of bank row w: the dot product of x with the row of scoring weights, times 1/32. -/
def score (xr : Fin 1024 → EReal) (A : Fin 512 → Fin 1024 → EReal) (w : Fin 512) : EReal :=
  (∑ k : Fin 1024, xr k * A w k) * Ideal.ofBits .f32 0x3D000000#32

/-- The largest score. -/
def top (xr : Fin 1024 → EReal) (A : Fin 512 → Fin 1024 → EReal) : EReal :=
  (Finset.univ : Finset (Fin 512)).fold max (Ideal.ofBits .f32 0xFF800000#32) (fun w => score xr A w)

/-- The shifted exponential of score w. -/
def expo (xr : Fin 1024 → EReal) (A : Fin 512 → Fin 1024 → EReal) (w : Fin 512) : EReal :=
  Ideal.exp (score xr A w - top xr A)

/-- The weight of bank row w: its shifted exponential over the sum of them all. -/
def weight (xr : Fin 1024 → EReal) (A : Fin 512 → Fin 1024 → EReal) (w : Fin 512) : EReal :=
  Ideal.div (expo xr A w) (∑ v : Fin 512, expo xr A v)

/-- The gate at feature e: the logistic function of the affine map's value there. -/
def gate (xr : Fin 1024 → EReal) (Gw : Fin 1024 → Fin 1024 → EReal) (gb : Fin 1024 → EReal) (e : Fin 1024) : EReal :=
  Ideal.logistic ((∑ k : Fin 1024, xr k * Gw e k) + gb e)

/-- The output at feature e: the gate blends x with the retrieved row. -/
def out (xr : Fin 1024 → EReal) (A : Fin 512 → Fin 1024 → EReal) (B : Fin 512 → Fin 1024 → EReal)
    (Gw : Fin 1024 → Fin 1024 → EReal) (gb : Fin 1024 → EReal) (e : Fin 1024) : EReal :=
  gate xr Gw gb e * xr e + (1 - gate xr Gw gb e) * (∑ w : Fin 512, weight xr A w * B w e)

/-- The output depends on its five ingredients entry by entry only. -/
theorem out_congr {xr xr' : Fin 1024 → EReal} {A A' B B' : Fin 512 → Fin 1024 → EReal}
    {Gw Gw' : Fin 1024 → Fin 1024 → EReal} {gb gb' : Fin 1024 → EReal}
    (h1 : ∀ k, xr k = xr' k) (h2 : ∀ w k, A w k = A' w k) (h3 : ∀ w d, B w d = B' w d)
    (h4 : ∀ d k, Gw d k = Gw' d k) (h5 : ∀ d, gb d = gb' d) (e : Fin 1024) :
    out xr A B Gw gb e = out xr' A' B' Gw' gb' e := by
  obtain rfl : xr = xr' := funext h1
  obtain rfl : A = A' := funext fun w => funext (h2 w)
  obtain rfl : B = B' := funext fun w => funext (h3 w)
  obtain rfl : Gw = Gw' := funext fun d => funext (h4 d)
  obtain rfl : gb = gb' := funext h5
  rfl

end Cert.BankRow

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.KernelRow.lean ====
/-
  What the kernel's body stores at (p, e) of its output block is the row function of row p of its input block.

  The body multiplies the 512 × 1024 block of tokens by a 1024 × 1536 matrix whose first 512 columns score the bank
  rows and whose last 1024 columns carry the gate's affine map, cuts the product into those two parts, scales the
  scores by 1/32, turns each row of scores into weights (largest score subtracted, exponentials, divided by their
  row sum), multiplies the weights by the 512 × 1024 bank, applies the logistic function to the gate's part plus
  the bias row, and blends. Each stage is read at an index: a product as the sum over the contracted axis, a cut
  as a shift of the column, a row's maximum and sum as the fold and the finite sum over the row, a column spread
  back over the row as its entry.
-/
import proofs.«107293_j78864189489922_2_alg».proof.Proof.Gen.KernelIdeal.Skeleton
import proofs.«107293_j78864189489922_2_alg».proof.Proof.Row
import proofs.«107293_j78864189489922_2_alg».proof.Proof.LibPlainDot
import proofs.«107293_j78864189489922_2_alg».proof.Proof.LibRowOps
import Idealize.ShloMosaic.Lib.Pipeline.Value
import Idealize.ShloMosaic.Lib.ValueIdx
import Idealize.ShloMosaic.Lib.ValueLayout

noncomputable section

open scoped BigOperators

namespace Cert.KernelIdeal.BankRow

open Cert.KernelIdeal Cert.KernelIdeal.Gen Idealize.ShloMosaic Idealize.ShloMosaic.ValueIdx Cert.BankRow

/-! ## The stages -/

/-- The product of the token block with the 1024 × 1536 matrix. -/
def prodAll (v0 : FVec Ideal S512x1024 .f32) (v3 : FVec Ideal S1024x1536 .bf16) : FVec Ideal S512x1536 .f32 :=
  matmul dot_S512x1024_S1024x1536_S512x1536_1_0_0_1_n_n none
    (truncf .bf16 (shapeCast S512x1024 v0 shapeCasts_S512x1024_S512x1024) bitsLt_bf16_f32)
    (shapeCast S1024x1536 v3 shapeCasts_S1024x1536_S1024x1536) (constant (F := Ideal) S512x1536 .f32 0x00000000#32)

/-- The scaled scores: the product's first 512 columns times 1/32. -/
def scores (v0 : FVec Ideal S512x1024 .f32) (v3 : FVec Ideal S1024x1536 .bf16) : FVec Ideal S512x512 .f32 :=
  mulf (extractStridedSlice S512x512 ![0, 0] (prodAll v0 v3) slices_S512x1536_o0_0_S512x512)
    (broadcast S512x512 (Scalar.ofBits (F := Ideal) .f32 0x3D000000#32))

/-- Each row's largest score. -/
def rowTop (v0 : FVec Ideal S512x1024 .f32) (v3 : FVec Ideal S1024x1536 .bf16) : FVec Ideal S512 .f32 :=
  multiReduction .maximumf [1] S512 (scores v0 v3) 0xFF800000#32 reduces_S512x512_S512 (.inl rfl) rfl

/-- The shifted exponentials. -/
def expos (v0 : FVec Ideal S512x1024 .f32) (v3 : FVec Ideal S1024x1536 .bf16) : FVec Ideal S512x512 .f32 :=
  exp (subf (scores v0 v3)
    (broadcastTo S512x512 (shapeCast S512x1 (rowTop v0 v3) shapeCasts_S512_S512x1) broadcasts_S512x1_S512x512))

/-- Each row's sum of them. -/
def rowSum (v0 : FVec Ideal S512x1024 .f32) (v3 : FVec Ideal S1024x1536 .bf16) : FVec Ideal S512 .f32 :=
  multiReduction .add [1] S512 (expos v0 v3) 0x00000000#32 reduces_S512x512_S512 (.inl rfl) rfl

/-- The weights. -/
def weights (v0 : FVec Ideal S512x1024 .f32) (v3 : FVec Ideal S1024x1536 .bf16) : FVec Ideal S512x512 .bf16 :=
  truncf .bf16 (divf (expos v0 v3)
    (broadcastTo S512x512 (shapeCast S512x1 (rowSum v0 v3) shapeCasts_S512_S512x1) broadcasts_S512x1_S512x512)) bitsLt_bf16_f32

/-- The retrieved rows: the weights times the bank. -/
def retrieved (v0 : FVec Ideal S512x1024 .f32) (v3 : FVec Ideal S1024x1536 .bf16) (v24 : FVec Ideal S512x1024 .bf16) :
    FVec Ideal S512x1024 .f32 :=
  matmul dot_S512x512_S512x1024_S512x1024_1_0_0_1_n_n none (weights v0 v3)
    (shapeCast S512x1024 v24 shapeCasts_S512x1024_S512x1024) (constant (F := Ideal) S512x1024 .f32 0x00000000#32)

/-- The gates: the logistic function of the product's last 1024 columns plus the bias row. -/
def gates (v0 : FVec Ideal S512x1024 .f32) (v3 : FVec Ideal S1024x1536 .bf16) (v10 : FVec Ideal S1x1024 .f32) :
    FVec Ideal S512x1024 .f32 :=
  logistic (addf (extractStridedSlice S512x1024 ![0, 512] (prodAll v0 v3) slices_S512x1536_o0_512_S512x1024)
    (broadcastTo S512x1024 (shapeCast S1x1024 v10 shapeCasts_S1x1024_S1x1024) broadcasts_S1x1024_S512x1024))

/-- The stored value is the blend of the token block with the retrieved rows by the gates. -/
theorem payload_eq (v0 : FVec Ideal S512x1024 .f32) (v3 : FVec Ideal S1024x1536 .bf16) (v10 : FVec Ideal S1x1024 .f32)
    (v24 : FVec Ideal S512x1024 .bf16) :
    k0_pay1 (F := Ideal) v0 v3 v10 v24
      = addf (mulf (gates v0 v3 v10) (shapeCast S512x1024 v0 shapeCasts_S512x1024_S512x1024))
          (mulf (subf (broadcast S512x1024 (Scalar.ofBits (F := Ideal) .f32 0x3F800000#32)) (gates v0 v3 v10))
            (retrieved v0 v3 v24)) := rfl

/-! ## The stages at an index -/

/-- The product at (p, j): the sum over k of token (p, k) times matrix (k, j). -/
theorem prodAll_apply (v0 : FVec Ideal S512x1024 .f32) (v3 : FVec Ideal S1024x1536 .bf16) (p : Fin 512) (j : Fin 1536) :
    prodAll v0 v3 (ix2 p j) = ∑ k : Fin 1024, v0 (ix2 p k) * v3 (ix2 k j) := by
  unfold prodAll
  rw [shapeCast_self, shapeCast_self]
  exact PlainDot.matmul_zero_apply (M := 512) (K := 1024) (N := 1536) none (truncf .bf16 v0 bitsLt_bf16_f32) v3 p j

/-- The retrieved rows at (p, e): the sum over the bank rows of weight times bank entry. -/
theorem retrieved_apply' (wts : FVec Ideal S512x512 .bf16) (v24 : FVec Ideal S512x1024 .bf16) (p : Fin 512) (e : Fin 1024) :
    matmul dot_S512x512_S512x1024_S512x1024_1_0_0_1_n_n none wts
        (shapeCast S512x1024 v24 shapeCasts_S512x1024_S512x1024) (constant (F := Ideal) S512x1024 .f32 0x00000000#32) (ix2 p e)
      = ∑ w : Fin 512, wts (ix2 p w) * v24 (ix2 w e) := by
  rw [shapeCast_self]
  exact PlainDot.matmul_zero_apply (M := 512) (K := 512) (N := 1024) none wts v24 p e

/-- Column w of the matrix's scoring part. -/
abbrev colScore (w : Fin 512) : Fin 1536 := ⟨w.val, Nat.lt_of_lt_of_le w.isLt (by decide)⟩

/-- Column e of the matrix's gate part: 512 further along. -/
abbrev colGate (e : Fin 1024) : Fin 1536 := ⟨512 + e.val, by have := e.isLt; omega⟩

section
variable (v0 : FVec Ideal S512x1024 .f32) (v3 : FVec Ideal S1024x1536 .bf16) (v10 : FVec Ideal S1x1024 .f32)
  (v24 : FVec Ideal S512x1024 .bf16)

/-- The scores at (p, w): the row function's score of bank row w. -/
theorem scores_apply (p : Fin 512) (w : Fin 512) :
    scores v0 v3 (ix2 p w) = score (fun k => v0 (ix2 p k)) (fun w k => v3 (ix2 k (colScore w))) w := by
  unfold scores score
  rw [mulf_apply, broadcast_apply,
    slice2_axis1_apply 0 (prodAll v0 v3) slices_S512x1536_o0_0_S512x512 p w (colScore w) (Nat.zero_add _).symm,
    prodAll_apply]
  rfl

/-- Row p's largest score. -/
theorem rowTop_apply (p : Fin 512) :
    rowTop v0 v3 (ix1 p) = top (fun k => v0 (ix2 p k)) (fun w k => v3 (ix2 k (colScore w))) := by
  unfold rowTop top
  refine (RowOps.rowMax_vector (a := 512) (b := 512) (scores v0 v3) 0xFF800000#32 reduces_S512x512_S512 (.inl rfl) rfl p).trans ?_
  exact congrArg (fun f => Finset.fold max (Ideal.ofBits .f32 0xFF800000#32) f (Finset.univ : Finset (Fin 512)))
    (funext fun w => scores_apply v0 v3 p w)

/-- The shifted exponentials at (p, w). -/
theorem expos_apply (p : Fin 512) (w : Fin 512) :
    expos v0 v3 (ix2 p w) = expo (fun k => v0 (ix2 p k)) (fun w k => v3 (ix2 k (colScore w))) w := by
  unfold expos expo
  show Ideal.exp (scores v0 v3 (ix2 p w)
    - broadcastTo S512x512 (shapeCast S512x1 (rowTop v0 v3) shapeCasts_S512_S512x1) broadcasts_S512x1_S512x512 (ix2 p w)) = _
  rw [RowOps.colBcast_apply, RowOps.colCast_apply, rowTop_apply, scores_apply]

/-- Row p's sum of them. -/
theorem rowSum_apply (p : Fin 512) :
    rowSum v0 v3 (ix1 p) = ∑ w : Fin 512, expo (fun k => v0 (ix2 p k)) (fun w k => v3 (ix2 k (colScore w))) w := by
  unfold rowSum
  refine (RowOps.rowSum_vector (a := 512) (b := 512) (expos v0 v3) 0x00000000#32 reduces_S512x512_S512 (.inl rfl) rfl p).trans ?_
  exact Finset.sum_congr rfl fun w _ => expos_apply v0 v3 p w

/-- The weights at (p, w). -/
theorem weights_apply (p : Fin 512) (w : Fin 512) :
    weights v0 v3 (ix2 p w) = weight (fun k => v0 (ix2 p k)) (fun w k => v3 (ix2 k (colScore w))) w := by
  unfold weights weight
  show Ideal.div (expos v0 v3 (ix2 p w))
    (broadcastTo S512x512 (shapeCast S512x1 (rowSum v0 v3) shapeCasts_S512_S512x1) broadcasts_S512x1_S512x512 (ix2 p w)) = _
  rw [RowOps.colBcast_apply, RowOps.colCast_apply, rowSum_apply, expos_apply]

/-- The retrieved rows at (p, e). -/
theorem retrieved_apply (p : Fin 512) (e : Fin 1024) :
    retrieved v0 v3 v24 (ix2 p e)
      = ∑ w : Fin 512, weight (fun k => v0 (ix2 p k)) (fun w k => v3 (ix2 k (colScore w))) w * v24 (ix2 w e) := by
  unfold retrieved
  rw [retrieved_apply']
  exact Finset.sum_congr rfl fun w _ => by rw [weights_apply]

/-- The gates at (p, e). -/
theorem gates_apply (p : Fin 512) (e : Fin 1024) :
    gates v0 v3 v10 (ix2 p e)
      = gate (fun k => v0 (ix2 p k)) (fun d k => v3 (ix2 k (colGate d))) (fun d => v10 (ix2 (0 : Fin 1) d)) e := by
  unfold gates gate
  show Ideal.logistic (extractStridedSlice S512x1024 ![0, 512] (prodAll v0 v3) slices_S512x1536_o0_512_S512x1024 (ix2 p e)
    + broadcastTo S512x1024 (shapeCast S1x1024 v10 shapeCasts_S1x1024_S1x1024) broadcasts_S1x1024_S512x1024 (ix2 p e)) = _
  rw [slice2_axis1_apply 512 (prodAll v0 v3) slices_S512x1536_o0_512_S512x1024 p e (colGate e) rfl, prodAll_apply,
    broadcastTo_1b_ab_apply, shapeCast_self]

/-- What the body stores at (p, e): the row function of row p of the token block, scored and gated by the matrix's
    two parts, mixed from the bank block, biased by the bias row. -/
theorem payload_apply (p : Fin 512) (e : Fin 1024) :
    k0_pay1 (F := Ideal) v0 v3 v10 v24 (ix2 p e)
      = out (fun k => v0 (ix2 p k)) (fun w k => v3 (ix2 k (colScore w))) (fun w d => v24 (ix2 w d))
          (fun d k => v3 (ix2 k (colGate d))) (fun d => v10 (ix2 (0 : Fin 1) d)) e := by
  rw [payload_eq]
  show gates v0 v3 v10 (ix2 p e) * shapeCast S512x1024 v0 shapeCasts_S512x1024_S512x1024 (ix2 p e)
    + (Ideal.ofBits .f32 0x3F800000#32 - gates v0 v3 v10 (ix2 p e)) * retrieved v0 v3 v24 (ix2 p e) = _
  rw [shapeCast_self, gates_apply, retrieved_apply, word_one]
  rfl

end

end Cert.KernelIdeal.BankRow

end
-- ==== Proof.Blocks.lean ====
/-
  From blocks to the array: after the region the flat output array holds, at row r and feature e, the row function of
  row r of the flat token array, scored and gated by the 1024 × 1536 matrix, mixed from the bank's copy, biased by the
  bias row, each as the region found it.

  Grid point t reads rows 512 t … 512 t + 511 of the flat token array and the three other arrays whole, and writes rows
  512 t … 512 t + 511 of the output; row r of the output is written by point r / 512, and the 32 points' blocks cover
  all 16384 rows.
-/
import proofs.«107293_j78864189489922_2_alg».proof.Proof.Gen.KernelIdeal.Frame
import proofs.«107293_j78864189489922_2_alg».proof.Proof.KernelRow
import Idealize.ShloMosaic.Lib.Pipeline.Value
import Idealize.ShloMosaic.Lib.ValueIdx

noncomputable section

namespace Cert.KernelIdeal.BankRow

open Cert.KernelIdeal Cert.KernelIdeal.Gen Idealize.ShloMosaic Idealize.ShloMosaic.TcCoe Idealize.ShloMosaic.ValueIdx
  Idealize.SL.Sem Cert.BankRow
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The flat output as one function of the four arrays the region reads: row (i 0), feature (i 1). -/
def flatOut (T : S16384x1024.Idx → EReal) (Wm : S1024x1536.Idx → EReal) (Bk : S512x1024.Idx → EReal)
    (br : S1x1024.Idx → EReal) : S16384x1024.Idx → EReal :=
  fun i => out (fun k => T (ix2 (i 0) k)) (fun w k => Wm (ix2 k (colScore w))) (fun w d => Bk (ix2 w d))
    (fun d k => Wm (ix2 k (colGate d))) (fun d => br (ix2 (0 : Fin 1) d)) (i 1)

/-- The printed index maps over the 32 points: the token and output blocks move down one block per point, the other
    three stay put. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The blocks read at an index -/

/-- Row p of the token block at point t is row 512 t + p of the flat token array. -/
theorem tokenBlock_apply (c : Dev nD) (t : Fin cfg0.N) (p : Fin 512) (k : Fin 1024) (r : Fin 16384)
    (hr : r.val = t.val * 512 + p.val) :
    (iblk m c 0 t : S512x1024.Idx → EReal) (ix2 p k) = (V m c main_v0 : S16384x1024.Idx → EReal) (ix2 r k) := by
  obtain ⟨e0, e1, -⟩ := index_facts t
  unfold iblk
  rw [View.read_apply]
  show (V m c main_v0 : S16384x1024.Idx → EReal) _ = (V m c main_v0 : S16384x1024.Idx → EReal) _
  congr 1
  funext a; apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The matrix's block is the matrix. -/
theorem matrixBlock_apply (c : Dev nD) (t : Fin cfg0.N) (a : Fin 1024) (b : Fin 1536) :
    (iblk m c 1 t : S1024x1536.Idx → EReal) (ix2 a b) = (V m c main_v6 : S1024x1536.Idx → EReal) (ix2 a b) := by
  obtain ⟨-, -, e0, e1, -⟩ := index_facts t
  unfold iblk
  rw [View.read_apply]
  show (V m c main_v6 : S1024x1536.Idx → EReal) _ = (V m c main_v6 : S1024x1536.Idx → EReal) _
  congr 1
  funext x; apply Fin.ext
  match x with
  | ⟨0, _⟩ => show win0_1.index t (0 : Fin 2) * 1024 + 1 * a.val = a.val; rw [e0]; omega
  | ⟨1, _⟩ => show win0_1.index t (1 : Fin 2) * 1536 + 1 * b.val = b.val; rw [e1]; omega

/-- The bank's block is the bank's copy. -/
theorem bankBlock_apply (c : Dev nD) (t : Fin cfg0.N) (a : Fin 512) (b : Fin 1024) :
    (iblk m c 2 t : S512x1024.Idx → EReal) (ix2 a b) = (V m c main_v7 : S512x1024.Idx → EReal) (ix2 a b) := by
  obtain ⟨-, -, -, -, e0, e1, -⟩ := index_facts t
  unfold iblk
  rw [View.read_apply]
  show (V m c main_v7 : S512x1024.Idx → EReal) _ = (V m c main_v7 : S512x1024.Idx → EReal) _
  congr 1
  funext x; apply Fin.ext
  match x with
  | ⟨0, _⟩ => show win0_2.index t (0 : Fin 2) * 512 + 1 * a.val = a.val; rw [e0]; omega
  | ⟨1, _⟩ => show win0_2.index t (1 : Fin 2) * 1024 + 1 * b.val = b.val; rw [e1]; omega

/-- The bias row's block is the bias row. -/
theorem biasBlock_apply (c : Dev nD) (t : Fin cfg0.N) (a : Fin 1) (b : Fin 1024) :
    (iblk m c 3 t : S1x1024.Idx → EReal) (ix2 a b) = (V m c main_v1 : S1x1024.Idx → EReal) (ix2 a b) := by
  obtain ⟨-, -, -, -, -, -, e0, e1, -⟩ := index_facts t
  unfold iblk
  rw [View.read_apply]
  show (V m c main_v1 : S1x1024.Idx → EReal) _ = (V m c main_v1 : S1x1024.Idx → EReal) _
  congr 1
  funext x; apply Fin.ext
  match x with
  | ⟨0, _⟩ => show win0_3.index t (0 : Fin 2) * 1 + 1 * a.val = a.val; rw [e0]; omega
  | ⟨1, _⟩ => show win0_3.index t (1 : Fin 2) * 1024 + 1 * b.val = b.val; rw [e1]; omega

/-- Entry (p, e) of the output block at point t sits at row 512 t + p, feature e of the output array. -/
theorem outBlock_emb (t : Fin cfg0.N) (p : Fin 512) (e : Fin 1024) (r : Fin 16384) (hr : r.val = t.val * 512 + p.val) :
    ((cfg0.win 4).blk t).view.emb (ix2 p e) = (ix2 r e : S16384x1024.Idx) := by
  obtain ⟨-, -, -, -, -, -, -, -, e0, e1⟩ := index_facts t
  funext x; apply Fin.ext
  match x with
  | ⟨0, _⟩ => show win0_4.index t (0 : Fin 2) * 512 + 1 * p.val = r.val; rw [e0, hr]; omega
  | ⟨1, _⟩ => show win0_4.index t (1 : Fin 2) * 1024 + 1 * e.val = e.val; rw [e1]; omega

/-! ## What a point writes back, the cover, the array -/

/-- What point t writes back is block t of the flat output function of the arrays as the region finds them. -/
theorem flushed_eq (c : Dev nD) (t : Fin cfg0.N) :
    (dats m 0 c).flushed 4 t = ((cfg0.win 4).blk t).view.read (Elt Ideal)
      (flatOut (V m c main_v0) (V m c main_v6) (V m c main_v7) (V m c main_v1)) := by
  show (cfg0.win 4).cut (grid0.coords t) ((dats m 0 c).after 4 t) = _
  rw [after0_4]
  unfold out0_4
  rw [View.canon_unit_zero offsets_zero]
  simp only [View.ld_unit_zero (S := S512x1024) offsets_zero, View.ld_unit_zero (S := S1024x1536) offsets_zero,
    View.ld_unit_zero (S := S1x1024) offsets_zero]
  funext y
  obtain ⟨p, e, rfl⟩ : ∃ (p : Fin 512) (e : Fin 1024), y = ix2 p e := ⟨y 0, y 1, eq_ix2 y⟩
  have hN : cfg0.N = 32 := N_0
  have hr : t.val * 512 + p.val < 16384 := by have := t.isLt; have := p.isLt; omega
  show k0_pay1 (F := Ideal) (iblk m c 0 t) (iblk m c 1 t) (iblk m c 3 t) (iblk m c 2 t) (ix2 p e)
    = flatOut (V m c main_v0) (V m c main_v6) (V m c main_v7) (V m c main_v1) (((cfg0.win 4).blk t).view.emb (ix2 p e))
  rw [outBlock_emb t p e ⟨_, hr⟩ rfl]
  refine (payload_apply (iblk m c 0 t) (iblk m c 1 t) (iblk m c 3 t) (iblk m c 2 t) p e).trans ?_
  exact out_congr (fun k => tokenBlock_apply m c t p k ⟨_, hr⟩ rfl) (fun w k => matrixBlock_apply m c t k (colScore w))
    (fun w d => bankBlock_apply m c t w d) (fun d k => matrixBlock_apply m c t k (colGate d))
    (fun d => biasBlock_apply m c t (0 : Fin 1) d) e

/-- An index of the output array is in point t's block iff each coordinate is in the block's range on its axis. -/
theorem mem_blk (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v8).slice (win0_4.rect t)).set ↔ _
  rw [View.set_slice_whole, Rect.mem_set_unit]
  exact Iff.rfl

/-- Row r of the output is written by point r / 512. -/
theorem cover (i : S16384x1024.Idx) :
    ∃ t : Fin cfg0.N, (cfg0.win 4).flush t = true ∧ i ∈ ((cfg0.win 4).blk t).view.set := by
  have hN : cfg0.N = 32 := N_0
  have hi0 : (i 0).val < 16384 := (i 0).isLt
  have hi1 : (i 1).val < 1024 := (i 1).isLt
  have ht : (i 0).val / 512 < cfg0.N := by rw [hN]; omega
  obtain ⟨-, -, -, -, -, -, -, -, e0, e1⟩ := index_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    rw [e1]; omega

/-- So after the region the output array is the flat output function of the arrays as the region found them. -/
theorem flat_final (c : Dev nD) :
    (dats m 0 c).arrAt 4 cfg0.N = flatOut (V m c main_v0) (V m c main_v6) (V m c main_v7) (V m c main_v1) :=
  (dats m 0 c).arrAt_eq_of_cover 4 _ (fun t _ => flushed_eq m c t) cover

end Cert.KernelIdeal.BankRow

end
-- ==== Proof.Entry.lean ====
/-
  What the region finds in its four input arrays, in terms of the argument arrays.

  Before the region the program flattens the tokens [4, 4096, 1024] to [16384, 1024], so row b · 4096 + s of the
  flat array is token (b, s); stands the bias up as one row; lays the bank's transpose (1024 × 512) beside the gate
  weights' transpose (1024 × 1024) as one 1024 × 1536 matrix, so its entry (k, w) for w < 512 is bank (w, k) and its
  entry (k, 512 + d) is gate weight (d, k); and copies the bank (a change of float format, the identity here).
-/
import proofs.«107293_j78864189489922_2_alg».proof.Proof.Gen.KernelIdeal.Frame
import proofs.«107293_j78864189489922_2_alg».proof.Proof.KernelRow
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.BankRow

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ)

/-! ## The arrays as the host operations leave them -/

/-- The flat token array is the tokens recast. -/
theorem tokens_eq (c : Dev nD) :
    (V m c main_v0 : S16384x1024.Idx → EReal)
      = shapeCast S16384x1024 (m ((c : Thread nD τ).loc main_arg0) : S4x4096x1024.Idx → EReal) shapeCasts_S4x4096x1024_S16384x1024 := by
  show StableHlo.after hostOps0 (fun b => m (c, b)) (Proc.devRef .tc main_v0) = _
  after_results
  rfl

/-- The bias row is the bias recast. -/
theorem biasRow_eq (c : Dev nD) :
    (V m c main_v1 : S1x1024.Idx → EReal)
      = shapeCast S1x1024 (m ((c : Thread nD τ).loc main_arg3) : S1024.Idx → EReal) shapeCasts_S1024_S1x1024 := by
  show StableHlo.after hostOps0 (fun b => m (c, b)) (Proc.devRef .tc main_v1) = _
  after_results
  rfl

/-- The 1024 × 1536 matrix is the bank's transpose beside the gate weights' transpose. -/
theorem matrix_eq (c : Dev nD) :
    (V m c main_v6 : S1024x1536.Idx → EReal)
      = concatenate S1024x1536 1
          [⟨S1024x512, truncf (F := Ideal) .bf16 (transpose S1024x512 [1, 0] (m ((c : Thread nD τ).loc main_arg1) : S512x1024.Idx → EReal) transposes_S512x1024_S1024x512_1_0) bitsLt_bf16_f32⟩,
           ⟨S1024x1024, truncf (F := Ideal) .bf16 (transpose S1024x1024 [1, 0] (m ((c : Thread nD τ).loc main_arg2) : S1024x1024.Idx → EReal) transposes_S1024x1024_S1024x1024_1_0) bitsLt_bf16_f32⟩]
          concatenates_S1024x512_S1024x1024_S1024x1536_d1 := by
  show StableHlo.after hostOps0 (fun b => m (c, b)) (Proc.devRef .tc main_v6) = _
  after_results

/-- The bank's copy is the bank. -/
theorem bank_eq (c : Dev nD) :
    (V m c main_v7 : S512x1024.Idx → EReal) = (m ((c : Thread nD τ).loc main_arg1) : S512x1024.Idx → EReal) := by
  show StableHlo.after hostOps0 (fun b => m (c, b)) (Proc.devRef .tc main_v7) = _
  after_results
  rfl

/-! ## At an index -/

/-- Row b · 4096 + s of the flat token array is token (b, s). -/
theorem tokens_apply (c : Dev nD) (r : Fin 16384) (k : Fin 1024) (b : Fin 4) (s : Fin 4096) (hr : r.val = b.val * 4096 + s.val) :
    (V m c main_v0 : S16384x1024.Idx → EReal) (ix2 r k) = (m ((c : Thread nD τ).loc main_arg0) : S4x4096x1024.Idx → EReal) (ix3 b s k) := by
  rw [tokens_eq]
  refine shapeCast_apply _ _ (ix2 r k) (ix3 b s k) ?_
  rw [Shape.rowMajor_val_three, Shape.rowMajor_val_two]
  show (b.val * 4096 + s.val) * 1024 + k.val = r.val * 1024 + k.val
  rw [hr]

/-- The bias row at (0, d) is the bias at d. -/
theorem biasRow_apply (c : Dev nD) (d : Fin 1024) :
    (V m c main_v1 : S1x1024.Idx → EReal) (ix2 (0 : Fin 1) d) = (m ((c : Thread nD τ).loc main_arg3) : S1024.Idx → EReal) (ix1 d) := by
  rw [biasRow_eq]
  exact shapeCast_a_1a_apply _ _ (0 : Fin 1) d

/-- The matrix at (k, w), w < 512, is bank (w, k). -/
theorem matrix_score_apply (c : Dev nD) (k : Fin 1024) (w : Fin 512) :
    (V m c main_v6 : S1024x1536.Idx → EReal) (ix2 k (colScore w)) = (m ((c : Thread nD τ).loc main_arg1) : S512x1024.Idx → EReal) (ix2 w k) := by
  rw [matrix_eq]
  refine (concatenate_pair_apply_left (1 : Fin S1024x1536.rank) _ _ concatenates_S1024x512_S1024x1024_S1024x1536_d1
    (ix2 k (colScore w)) rfl (ix2 k w) (fun b => by match b with | ⟨0, _⟩ => rfl | ⟨1, _⟩ => rfl)).trans ?_
  exact transpose_ix2_apply _ transposes_S512x1024_S1024x512_1_0 k w

/-- The matrix at (k, 512 + d) is gate weight (d, k). -/
theorem matrix_gate_apply (c : Dev nD) (k : Fin 1024) (d : Fin 1024) :
    (V m c main_v6 : S1024x1536.Idx → EReal) (ix2 k (colGate d)) = (m ((c : Thread nD τ).loc main_arg2) : S1024x1024.Idx → EReal) (ix2 d k) := by
  rw [matrix_eq]
  refine (concatenate_pair_apply_right (1 : Fin S1024x1536.rank) _ _ concatenates_S1024x512_S1024x1024_S1024x1536_d1
    (ix2 k (colGate d)) rfl rfl (ix2 k d)
    (fun b hb => by match b with | ⟨0, _⟩ => rfl | ⟨1, _⟩ => exact absurd rfl hb)
    (by show d.val + 512 = 512 + d.val; omega)).trans ?_
  exact transpose_ix2_apply _ transposes_S1024x1024_S1024x1024_1_0 k d

/-- The bank's copy at (w, d) is bank (w, d). -/
theorem bank_apply (c : Dev nD) (w : Fin 512) (d : Fin 1024) :
    (V m c main_v7 : S512x1024.Idx → EReal) (ix2 w d) = (m ((c : Thread nD τ).loc main_arg1) : S512x1024.Idx → EReal) (ix2 w d) := by
  rw [bank_eq]

end Cert.KernelIdeal.BankRow

end
-- ==== Proof.Result.lean ====
/-
  The whole result: at (b, s, e), the row function of token row (b, s) against the bank (which both scores and is mixed),
  the gate's weights and its bias.
-/
import proofs.«107293_j78864189489922_2_alg».proof.Proof.Row
import Idealize.ShloMosaic.Lib.ValueIdx

noncomputable section

namespace Cert.BankRow

open Idealize.ShloMosaic Idealize.ShloMosaic.ValueIdx

/-- The result array as one function of the four argument arrays. -/
def result (X : (⟨3, ![4, 4096, 1024]⟩ : Shape).Idx → EReal) (Mb : (⟨2, ![512, 1024]⟩ : Shape).Idx → EReal)
    (Gw : (⟨2, ![1024, 1024]⟩ : Shape).Idx → EReal) (gb : (⟨1, ![1024]⟩ : Shape).Idx → EReal) :
    (⟨3, ![4, 4096, 1024]⟩ : Shape).Idx → EReal :=
  fun i => out (fun k => X (ix3 (i 0) (i 1) k)) (fun w k => Mb (ix2 w k)) (fun w d => Mb (ix2 w d))
    (fun d k => Gw (ix2 d k)) (fun d => gb (ix1 d)) (i 2)

end Cert.BankRow

end
-- ==== Proof.KernelRun.lean ====
/-
  The kernel's run, read: its result array ends at the result function of the argument arrays, the arguments unchanged.

  After the region the program recasts the flat output [16384, 1024] to [4, 4096, 1024]: entry (b, s, e) of the result
  is row b · 4096 + s, feature e of the flat output, which is the row function of flat token row b · 4096 + s — token
  (b, s) — scored by the matrix's first part (the bank transposed), gated by its second part (the gate weights
  transposed) and the bias row (the bias), mixed from the bank's copy (the bank).
-/
import proofs.«107293_j78864189489922_2_alg».proof.Proof.Gen.KernelIdeal.Frame
import proofs.«107293_j78864189489922_2_alg».proof.Proof.Blocks
import proofs.«107293_j78864189489922_2_alg».proof.Proof.Entry
import proofs.«107293_j78864189489922_2_alg».proof.Proof.Result
import Idealize.ShloMosaic.Lib.StableHlo.Run
import Idealize.ShloMosaic.Lib.Pipeline.Value
import Idealize.ShloMosaic.Lib.ValueIdx

noncomputable section

namespace Cert.KernelIdeal.BankRow

open Cert.KernelIdeal Cert.KernelIdeal.Gen Idealize.ShloMosaic Idealize.ShloMosaic.TcCoe Idealize.ShloMosaic.ValueIdx
  Idealize.SL.Sem Idealize.ShloMosaic.StableHlo Cert.BankRow

variable (m : (ℓ : Loc nD τ sig) → Buf (Elt Ideal) ℓ) (ρ : Dev nD → PrngReg)

/-- The flat output recast to [4, 4096, 1024] is the result function of the argument arrays. -/
theorem recast_flat (c : Dev nD) :
    shapeCast S4x4096x1024 (flatOut (V m c main_v0) (V m c main_v6) (V m c main_v7) (V m c main_v1))
        shapeCasts_S16384x1024_S4x4096x1024
      = result (m ((c : Thread nD τ).loc main_arg0)) (m ((c : Thread nD τ).loc main_arg1))
          (m ((c : Thread nD τ).loc main_arg2)) (m ((c : Thread nD τ).loc main_arg3)) := by
  funext i
  obtain ⟨b, s, e, rfl⟩ : ∃ (b : Fin 4) (s : Fin 4096) (e : Fin 1024), i = ix3 b s e := ⟨i 0, i 1, i 2, eq_ix3 i⟩
  have hr : b.val * 4096 + s.val < 16384 := by have := b.isLt; have := s.isLt; omega
  refine (shapeCast_apply _ shapeCasts_S16384x1024_S4x4096x1024 (ix3 b s e) (ix2 (⟨_, hr⟩ : Fin 16384) e) ?_).trans ?_
  · rw [Shape.rowMajor_val_three, Shape.rowMajor_val_two]
    rfl
  · exact out_congr (fun k => tokens_apply m c ⟨_, hr⟩ k b s rfl) (fun w k => matrix_score_apply m c k w)
      (fun w d => bank_apply m c w d) (fun d k => matrix_gate_apply m c k d) (fun d => biasRow_apply m c d) e

/-- What the lines after the region leave in the result buffer. -/
theorem tail_result (c : Dev nD) :
    Pipeline.afterTail₀ cfgs (dats m) 0 (V0 m) [hostOps1] c main_v9
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v9) = _
  after_results
  have hw : Pipeline.withArrays (cfgs 0).spec c (V0 m c) (fun w => (dats m 0 c).arrAt w (cfgs 0).N)
      (Proc.devRef .tc main_v8) = flatOut (V m c main_v0) (V m c main_v6) (V m c main_v7) (V m c main_v1) :=
    (Pipeline.withArrays_arr spec0 launch0.win.arr_inj c _ _ 4).trans (flat_final m c)
  rw [hw]
  exact recast_flat m c

/-- Every weakly fair execution of the kernel's program terminates with the result buffer at the result function of
    the argument arrays and the arguments unchanged. -/
theorem run : θ_run defs (onTc (τ := τ) (main (F := Ideal))) ⟨m, fun _ => 0, ρ⟩ fun r => ∀ c : Dev nD,
      r.2.mem ((c.tc : Thread nD τ).loc main_v9)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.BankRow

end
-- ==== Proof.LibLastAxisMax.lean ====
/-
  The host's maximum over the last axis of a three-axis array, read at an index, over the extended reals.

  For an a × b × c array reduced over its last axis by the host's reduce with a maximum body, the result at (p, q)
  is the fold of max, from the initial value, over the c entries (p, q, j). Putting coordinate k back on the
  dropped last axis of the result index (p, q) gives the source index (p, q, k).
-/
import Idealize.ShloMosaic.Lib.ValueIdx
import Idealize.ShloMosaic.PureOps.Ideal.Laws
import Idealize.ShloMosaic.PureOps.Reduce

noncomputable section

namespace Idealize.ShloMosaic.LastAxisMax

open Idealize.ShloMosaic Idealize.ShloMosaic.ValueIdx

variable {a b c : Nat}

/-- Result index (p, q) with coordinate k put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis at (p, q): the fold of max over the entries (p, q, j) from the initial value. -/
theorem lastMax_host (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.maximumf x init h' hu (ix2 p q)
      = (Finset.univ : Finset (Fin c)).fold max (init (Shape.Idx.first hu)) (fun j => x (ix3 p q j)) := by
  rw [Host.reduce_eq_fold_single FloatOps.maximumf x init h' h hu]
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

end Idealize.ShloMosaic.LastAxisMax

end
-- ==== Proof.RefRow.lean ====
/-
  What the reference computes at (b, s, e) is the row function of token row (b, s).

  The reference scores the token against the bank by a product contracted over the features and divides by the
  square root of 1024; takes the largest score of the row (once more against −∞, which changes nothing);
  exponentiates the shifted scores and divides by their sum; multiplies the weights by the bank; forms the gate as
  1 / (1 + exp (−z)) of the affine map's value z, which is the logistic function as it is defined; and blends. Read
  one operation at a time at an index, each stage is the row function's stage of the same name.
-/
import proofs.«107293_j78864189489922_2_alg».proof.Proof.Gen.ReferenceIdeal.Read
import proofs.«107293_j78864189489922_2_alg».proof.Proof.Row
import proofs.«107293_j78864189489922_2_alg».proof.Proof.LibLastAxisMax

noncomputable section

open scoped BigOperators

namespace Cert.ReferenceIdeal.BankRow

open Cert.ReferenceIdeal Cert.ReferenceIdeal.Gen Cert.ReferenceIdeal.Read Idealize.ShloMosaic Idealize.ShloMosaic.ValueIdx
  Cert.BankRow

variable (x0 : (⟨S4x4096x1024, .f32⟩ : BufTy).Contents (Elt Ideal)) (x1 : (⟨S512x1024, .f32⟩ : BufTy).Contents (Elt Ideal))
  (x2 : (⟨S1024x1024, .f32⟩ : BufTy).Contents (Elt Ideal)) (x3 : (⟨S1024, .f32⟩ : BufTy).Contents (Elt Ideal))

/-- The scaled score of bank row w for token (b, s). -/
theorem score_apply (b : Fin 4) (s : Fin 4096) (w : Fin 512) :
    val_main_v3 (F := Ideal) x0 x1 (ix3 b s w) = score (fun k => x0 (ix3 b s k)) (fun w k => x1 (ix2 w k)) w := by
  have el : ∀ k : Fin 1024, lidx_main_v0 (ix3 b s w) k = ix3 b s k := fun k =>
    funext fun a => Fin.ext (by match a with | ⟨0, _⟩ => rfl | ⟨1, _⟩ => rfl | ⟨2, _⟩ => rfl)
  have er : ∀ k : Fin 1024, ridx_main_v0 (ix3 b s w) k = ix2 w k := fun k =>
    funext fun a => Fin.ext (by match a with | ⟨0, _⟩ => rfl | ⟨1, _⟩ => rfl)
  rw [val_main_v3_apply, val_main_v0_apply, val_main_v2_apply, val_main_v1_apply, val_main_cst_apply]
  simp only [el, er]
  exact div_sqrt_1024 _

/-- The largest score of token (b, s). -/
theorem top_apply (b : Fin 4) (s : Fin 4096) :
    val_main_v6 (F := Ideal) x0 x1 (ix2 b s) = top (fun k => x0 (ix3 b s k)) (fun w k => x1 (ix2 w k)) := by
  rw [val_main_v6_apply, val_main_v5_apply, val_main_cst_1_apply]
  unfold val_main_v4 top
  rw [LastAxisMax.lastMax_host (a := 4) (b := 4096) (c := 512) (val_main_v3 (F := Ideal) x0 x1) (val_main_cst_0 (F := Ideal))
    reducesTo_S4x4096x512_S4x4096_d2 (by decide) h_S_ b s]
  refine (max_negInf _).trans ?_
  exact congrArg (fun f => Finset.fold max (Ideal.ofBits .f32 0xFF800000#32) f (Finset.univ : Finset (Fin 512)))
    (funext fun w => score_apply x0 x1 b s w)

/-- The shifted exponential of score w. -/
theorem expo_apply (b : Fin 4) (s : Fin 4096) (w : Fin 512) :
    val_main_v10 (F := Ideal) x0 x1 (ix3 b s w) = expo (fun k => x0 (ix3 b s k)) (fun w k => x1 (ix2 w k)) w := by
  have e1 : idx_main_v7 (idx_main_v8 (ix3 b s w)) = ix2 b s :=
    funext fun a => Fin.ext (by match a with | ⟨0, _⟩ => rfl | ⟨1, _⟩ => rfl)
  rw [val_main_v10_apply, val_main_v9_apply, val_main_v8_apply, val_main_v7_apply, e1, top_apply, score_apply]
  rfl

/-- The sum of the shifted exponentials of token (b, s). -/
theorem expoSum_apply (b : Fin 4) (s : Fin 4096) :
    val_main_v11 (F := Ideal) x0 x1 (ix2 b s)
      = ∑ w : Fin 512, expo (fun k => x0 (ix3 b s k)) (fun w k => x1 (ix2 w k)) w := by
  have e1 : ∀ k : Fin 512, idx_main_v11 (ix2 b s) k = ix3 b s k := fun k =>
    funext fun a => Fin.ext (by match a with | ⟨0, _⟩ => rfl | ⟨1, _⟩ => rfl | ⟨2, _⟩ => rfl)
  rw [val_main_v11_apply, val_main_cst_2_apply]
  simp only [e1, expo_apply]
  show Ideal.ofBits .f32 0x00000000#32 + _ = _
  rw [Ideal.ofBits_zero_f32, zero_add]

/-- The weight of bank row w. -/
theorem weight_apply (b : Fin 4) (s : Fin 4096) (w : Fin 512) :
    val_main_v14 (F := Ideal) x0 x1 (ix3 b s w) = weight (fun k => x0 (ix3 b s k)) (fun w k => x1 (ix2 w k)) w := by
  have e1 : idx_main_v12 (idx_main_v13 (ix3 b s w)) = ix2 b s :=
    funext fun a => Fin.ext (by match a with | ⟨0, _⟩ => rfl | ⟨1, _⟩ => rfl)
  rw [val_main_v14_apply, val_main_v13_apply, val_main_v12_apply, e1, expoSum_apply, expo_apply]
  rfl

/-- The retrieved row at feature e. -/
theorem retrieved_apply (b : Fin 4) (s : Fin 4096) (e : Fin 1024) :
    val_main_v15 (F := Ideal) x0 x1 (ix3 b s e)
      = ∑ w : Fin 512, weight (fun k => x0 (ix3 b s k)) (fun w k => x1 (ix2 w k)) w * x1 (ix2 w e) := by
  have el : ∀ k : Fin 512, lidx_main_v15 (ix3 b s e) k = ix3 b s k := fun k =>
    funext fun a => Fin.ext (by match a with | ⟨0, _⟩ => rfl | ⟨1, _⟩ => rfl | ⟨2, _⟩ => rfl)
  have er : ∀ k : Fin 512, ridx_main_v15 (ix3 b s e) k = ix2 k e := fun k =>
    funext fun a => Fin.ext (by match a with | ⟨0, _⟩ => rfl | ⟨1, _⟩ => rfl)
  rw [val_main_v15_apply]
  simp only [el, er, weight_apply]

/-- The gate at feature e: 1 / (1 + exp (−z)) is the logistic function of z. -/
theorem gate_apply (b : Fin 4) (s : Fin 4096) (e : Fin 1024) :
    val_main_v25 (F := Ideal) x0 x2 x3 (ix3 b s e)
      = gate (fun k => x0 (ix3 b s k)) (fun d k => x2 (ix2 d k)) (fun d => x3 (ix1 d)) e := by
  have el : ∀ k : Fin 1024, lidx_main_v16 (ix3 b s e) k = ix3 b s k := fun k =>
    funext fun a => Fin.ext (by match a with | ⟨0, _⟩ => rfl | ⟨1, _⟩ => rfl | ⟨2, _⟩ => rfl)
  have er : ∀ k : Fin 1024, ridx_main_v16 (ix3 b s e) k = ix2 e k := fun k =>
    funext fun a => Fin.ext (by match a with | ⟨0, _⟩ => rfl | ⟨1, _⟩ => rfl)
  have e3 : idx_main_v17 (idx_main_v18 (ix3 b s e)) = ix1 e :=
    funext fun a => Fin.ext (by match a with | ⟨0, _⟩ => rfl)
  rw [val_main_v25_apply, val_main_v24_apply, val_main_cst_4_apply, val_main_v23_apply, val_main_v22_apply,
    val_main_cst_3_apply, val_main_v21_apply, val_main_v20_apply, val_main_v19_apply, val_main_v16_apply,
    val_main_v18_apply, val_main_v17_apply, e3]
  simp only [el, er]
  show Ideal.div (Ideal.ofBits .f32 0x3F800000#32) (Ideal.ofBits .f32 0x3F800000#32 + Ideal.exp (-(_ + _))) = _
  rw [word_one]
  rfl

/-- The reference's result at (b, s, e): the row function of token row (b, s) against the bank, the gate's weights
    and its bias. -/
theorem out_apply (b : Fin 4) (s : Fin 4096) (e : Fin 1024) :
    val_main_v30 (F := Ideal) x0 x1 x2 x3 (ix3 b s e)
      = out (fun k => x0 (ix3 b s k)) (fun w k => x1 (ix2 w k)) (fun w d => x1 (ix2 w d)) (fun d k => x2 (ix2 d k))
          (fun d => x3 (ix1 d)) e := by
  rw [val_main_v30_apply, val_main_v26_apply, val_main_v29_apply, val_main_v28_apply, val_main_v27_apply,
    val_main_cst_5_apply, gate_apply, retrieved_apply]
  show _ * _ + (Ideal.ofBits .f32 0x3F800000#32 - _) * _ = _
  rw [word_one]
  rfl

end Cert.ReferenceIdeal.BankRow

end
-- ==== Proof.RefResult.lean ====
/-
  The reference's last stage, as a whole array, is the result function of its four argument arrays.
-/
import proofs.«107293_j78864189489922_2_alg».proof.Proof.RefRow
import proofs.«107293_j78864189489922_2_alg».proof.Proof.Result

noncomputable section

namespace Cert.ReferenceIdeal.BankRow

open Cert.ReferenceIdeal Cert.ReferenceIdeal.Gen Cert.ReferenceIdeal.Read Idealize.ShloMosaic Idealize.ShloMosaic.ValueIdx
  Cert.BankRow

/-- Index by index, the reference's result is the row function of the token's row. -/
theorem stage_eq_result (x0 : (⟨S4x4096x1024, .f32⟩ : BufTy).Contents (Elt Ideal))
    (x1 : (⟨S512x1024, .f32⟩ : BufTy).Contents (Elt Ideal)) (x2 : (⟨S1024x1024, .f32⟩ : BufTy).Contents (Elt Ideal))
    (x3 : (⟨S1024, .f32⟩ : BufTy).Contents (Elt Ideal)) :
    val_main_v30 (F := Ideal) x0 x1 x2 x3 = result x0 x1 x2 x3 := by
  funext i
  obtain ⟨b, s, e, rfl⟩ : ∃ (b : Fin 4) (s : Fin 4096) (e : Fin 1024), i = ix3 b s e := ⟨i 0, i 1, i 2, eq_ix3 i⟩
  exact out_apply x0 x1 x2 x3 b s e

end Cert.ReferenceIdeal.BankRow

end
-- ==== Proof.lean ====
/-
  A gated read from a fixed memory bank, kernel against reference, over the extended reals.

  For a token row x (1024 features), a bank of 512 rows, gate weights and a gate bias, both programs compute

      out e = g e · x e + (1 − g e) · ∑ w, a w · bank (w, e),
      a w   = exp (s w − max s) / ∑ v, exp (s v − max s),   s w = (x · bank row w) / 32,
      g e   = logistic ((x · gate row e) + bias e).

  The kernel flattens the 4 × 4096 tokens to 16384 rows and works on 32 blocks of 512 rows; per block it forms both
  products of x at once against one 1024 × 1536 matrix (the bank transposed beside the gate weights transposed), cuts
  the product in two, multiplies the scores by 1/32, and applies the logistic function as one operation. The reference
  works on the whole [4, 4096, ·] arrays, divides the scores by the square root of 1024 — which is 32, and dividing by
  32 is multiplying by 1/32 at every extended real —, takes one more maximum against −∞, and spells the logistic
  function out as 1 / (1 + exp (−z)), which is its definition. Sums run over the same index sets in the same order on
  both sides, so nothing is rearranged and the inputs' finiteness is never used.

  The modules: Row (the row function, the float words, the law for the scale), Result (the whole result as one
  function of the arguments), KernelRow (what the kernel's body stores, at an index), Entry (the arrays the region
  reads, in terms of the arguments), Blocks (from the 32 blocks to the flat output array), KernelRun (the recast
  after the region, and the kernel's run), RefRow and RefResult (the reference's stages at an index, and as a whole).
  The frames of the two kernel programs are the generated ones; the reference's frame is its generated run with the
  result dropped; the idealization rewrote nothing, so there is nothing to preserve.
-/
import proofs.«107293_j78864189489922_2_alg».proof.Defs
import proofs.«107293_j78864189489922_2_alg».proof.Proof.Gen.Kernel
import proofs.«107293_j78864189489922_2_alg».proof.Proof.Gen.Kernel.Skeleton
import proofs.«107293_j78864189489922_2_alg».proof.Proof.Gen.Kernel.Launch
import proofs.«107293_j78864189489922_2_alg».proof.Proof.Gen.Kernel.Points
import proofs.«107293_j78864189489922_2_alg».proof.Proof.Gen.Kernel.Frame
import proofs.«107293_j78864189489922_2_alg».proof.Proof.Gen.KernelIdeal
import proofs.«107293_j78864189489922_2_alg».proof.Proof.Gen.KernelIdeal.Skeleton
import proofs.«107293_j78864189489922_2_alg».proof.Proof.Gen.KernelIdeal.Launch
import proofs.«107293_j78864189489922_2_alg».proof.Proof.Gen.KernelIdeal.Points
import proofs.«107293_j78864189489922_2_alg».proof.Proof.Gen.KernelIdeal.Frame
import proofs.«107293_j78864189489922_2_alg».proof.Proof.Gen.ReferenceIdeal
import proofs.«107293_j78864189489922_2_alg».proof.Proof.Gen.Pre_finite_inputs
import proofs.«107293_j78864189489922_2_alg».proof.Proof.Gen.ReferenceIdeal.Run
import proofs.«107293_j78864189489922_2_alg».proof.Proof.Gen.ReferenceIdeal.Read
import proofs.«107293_j78864189489922_2_alg».proof.Proof.KernelRun
import proofs.«107293_j78864189489922_2_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result buffers at the result function of the (agreeing) argument arrays. -/
theorem algebraic : Cert.algebraic_KernelIdeal_ReferenceIdeal := by
  intro m ρ m' ρ' _ hagree
  refine ⟨fun c => Cert.BankRow.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.BankRow.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.BankRow.stage_eq_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
